-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S8396800 : Shape := ⟨1, ![8396800]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S8396800 : S_.BroadcastsInDim S8396800 (![] : Fin 0 → Fin S8396800.rank)
  reducesTo_S8396800_S_d0 : S8396800.ReducesTo [0] S_

variable [Facts]

def fn {F : FTy → Type} [FloatOps F] (main_arg0 : FVec F S16384x1024 .f32) (main_arg1 : FVec F S8396800 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S8396800 .f32 := Host.absf main_arg1
  let main_cst_0 : FVec F S_ .f32 := constant S_ .f32 0x7F800000#32
  let main_v5 : FVec F S8396800 .f32 := broadcastInDim S8396800 ![] bcast_S_S8396800 main_cst_0
  let main_v6 : IVec S8396800 1 := cmpf .olt main_v4 main_v5
  let main_c_1 : IVec S_ 1 := constantI S_ 1 1#1
  let main_v7 : IVec S_ 1 := (fun x v => Host.reduce IntOp.andi x v reducesTo_S8396800_S_d0 h_S_) main_v6 main_c_1
  let main_v8 : IVec S_ 1 := andi main_v3 main_v7
  main_v8
-- ==== Kernel.lean ====
abbrev S16384x1024 : Shape := ⟨2, ![16384, 1024]⟩
abbrev S8396800 : Shape := ⟨1, ![8396800]⟩
abbrev S4096 : Shape := ⟨1, ![4096]⟩
abbrev S4194304 : Shape := ⟨1, ![4194304]⟩
abbrev S4096x1024 : Shape := ⟨2, ![4096, 1024]⟩
abbrev S_ : Shape := ⟨0, ![]⟩
abbrev S1x4096 : Shape := ⟨2, ![1, 4096]⟩
abbrev S16384x4096 : Shape := ⟨2, ![16384, 4096]⟩
abbrev S1024x1024 : Shape := ⟨2, ![1024, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 17
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S8396800, .f32⟩
  | .hbm, ⟨2, _⟩ => ⟨S4096, .f32⟩
  | .hbm, ⟨3, _⟩ => ⟨S4194304, .f32⟩
  | .hbm, ⟨4, _⟩ => ⟨S4096x1024, .f32⟩
  | .hbm, ⟨5, _⟩ => ⟨S4194304, .f32⟩
  | .hbm, ⟨6, _⟩ => ⟨S4096x1024, .f32⟩
  | .hbm, ⟨7, _⟩ => ⟨S4096, .f32⟩
  | .hbm, ⟨8, _⟩ => ⟨S4096x1024, .bf16⟩
  | .hbm, ⟨9, _⟩ => ⟨S4096x1024, .bf16⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096, .f32⟩
  | .hbm, ⟨14, _⟩ => ⟨S1x4096, .f32⟩
  | .hbm, ⟨15, _⟩ => ⟨S1x4096, .f32⟩
  | .hbm, ⟨16, _⟩ => ⟨S16384x4096, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  slices_S8396800_S4096_0 : S8396800.Slices ![0] S4096
  slices_S8396800_S4194304_4096 : S8396800.Slices ![4096] S4194304
  shapeCasts_S4194304_S4096x1024 : S4194304.ShapeCasts S4096x1024
  slices_S8396800_S4194304_4198400 : S8396800.Slices ![4198400] S4194304
  slices_S8396800_S4096_8392704 : S8396800.Slices ![8392704] S4096
  bitsLt_bf16_f32 : FTy.bits .bf16 < FTy.bits .f32
  reducesTo_S4096x1024_S4096_d1 : S4096x1024.ReducesTo [1] S4096
  h_S_ : 0 < S_.numel
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  reduces_S1024x1024_S1024 : S1024x1024.Reduces [1] S1024
  shapeCasts_S1024_S1024x1 : S1024.ShapeCasts S1024x1
  broadcasts_S1024x1_S1024x1024 : S1024x1.Broadcasts S1024x1024
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x1024.size a
  hwx0_1 : ∀ i : grid0.Coords, EltTy.bits .bf16 = 32 ∨ (Rect.block (s := S4096x1024) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x1024.size a
  hwx0_2 : ∀ i : grid0.Coords, EltTy.bits .bf16 = 32 ∨ (Rect.block (s := S4096x1024) S1024x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .f32 = 32 ∨ (Rect.block (s := S1x4096) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x4096.size a
  hwx0_4 : ∀ i : grid0.Coords, EltTy.bits .f32 = 32 ∨ (Rect.block (s := S1x4096) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S16384x4096.size a
  hwx0_5 : ∀ i : grid0.Coords, EltTy.bits .f32 = 32 ∨ (Rect.block (s := S16384x4096) S1024x1024.size (cc0_transform_5 i) (hinb0_5 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v13) S1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S8396800 : Shape := ⟨1, ![8396800]⟩
abbrev S_ : Shape := ⟨0, ![]⟩
abbrev S4096 : Shape := ⟨1, ![4096]⟩
abbrev S4194304 : Shape := ⟨1, ![4194304]⟩
abbrev S4096x1024 : Shape := ⟨2, ![4096, 1024]⟩
abbrev S16384x4096 : Shape := ⟨2, ![16384, 4096]⟩
abbrev S1x4096 : Shape := ⟨2, ![1, 4096]⟩
abbrev S16384 : Shape := ⟨1, ![16384]⟩
abbrev S16384x1 : Shape := ⟨2, ![16384, 1]⟩

abbrev nBuf : Space → Nat
  | .hbm => 39
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S8396800, .f32⟩
  | .hbm, ⟨2, _⟩ => ⟨S_, .f32⟩
  | .hbm, ⟨3, _⟩ => ⟨S16384x1024, .f32⟩
  | .hbm, ⟨4, _⟩ => ⟨S16384x1024, .f32⟩
  | .hbm, ⟨5, _⟩ => ⟨S4096, .f32⟩
  | .hbm, ⟨6, _⟩ => ⟨S4194304, .f32⟩
  | .hbm, ⟨7, _⟩ => ⟨S4096x1024, .f32⟩
  | .hbm, ⟨8, _⟩ => ⟨S4194304, .f32⟩
  | .hbm, ⟨9, _⟩ => ⟨S4096x1024, .f32⟩
  | .hbm, ⟨10, _⟩ => ⟨S4096, .f32⟩
  | .hbm, ⟨11, _⟩ => ⟨S16384x4096, .f32⟩
  | .hbm, ⟨12, _⟩ => ⟨S1x4096, .f32⟩
  | .hbm, ⟨13, _⟩ => ⟨S16384x4096, .f32⟩
  | .hbm, ⟨14, _⟩ => ⟨S16384x4096, .f32⟩
  | .hbm, ⟨15, _⟩ => ⟨S16384x1024, .f32⟩
  | .hbm, ⟨16, _⟩ => ⟨S_, .f32⟩
  | .hbm, ⟨17, _⟩ => ⟨S16384, .f32⟩
  | .hbm, ⟨18, _⟩ => ⟨S16384x1, .f32⟩
  | .hbm, ⟨19, _⟩ => ⟨S4096x1024, .f32⟩
  | .hbm, ⟨20, _⟩ => ⟨S_, .f32⟩
  | .hbm, ⟨21, _⟩ => ⟨S4096, .f32⟩
  | .hbm, ⟨22, _⟩ => ⟨S16384x4096, .f32⟩
  | .hbm, ⟨23, _⟩ => ⟨S_, .f32⟩
  | .hbm, ⟨24, _⟩ => ⟨S16384x4096, .f32⟩
  | .hbm, ⟨25, _⟩ => ⟨S16384x4096, .f32⟩
  | .hbm, ⟨26, _⟩ => ⟨S16384x4096, .f32⟩
  | .hbm, ⟨27, _⟩ => ⟨S16384x4096, .f32⟩
  | .hbm, ⟨28, _⟩ => ⟨S1x4096, .f32⟩
  | .hbm, ⟨29, _⟩ => ⟨S16384x4096, .f32⟩
  | .hbm, ⟨30, _⟩ => ⟨S16384x4096, .f32⟩
  | .hbm, ⟨31, _⟩ => ⟨S16384x4096, .f32⟩
  | .hbm, ⟨32, _⟩ => ⟨S16384x4096, .f32⟩
  | .hbm, ⟨33, _⟩ => ⟨S1x4096, .f32⟩
  | .hbm, ⟨34, _⟩ => ⟨S16384x4096, .f32⟩
  | .hbm, ⟨35, _⟩ => ⟨S16384x4096, .f32⟩
  | .hbm, ⟨36, _⟩ => ⟨S_, .f32⟩
  | .hbm, ⟨37, _⟩ => ⟨S16384x4096, .f32⟩
  | .hbm, ⟨38, _⟩ => ⟨S16384x4096, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_1 : Ref sig .tc := ⟨.hbm, 20, rfl⟩
abbrev main_v16 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_cst_3 : Ref sig .tc := ⟨.hbm, 36, rfl⟩
abbrev main_v30 : Ref sig .tc := ⟨.hbm, 37, rfl⟩
abbrev main_v31 : Ref sig .tc := ⟨.hbm, 38, rfl⟩

abbrev nD : Nat := 1
abbrev τ : Topo := Topo.v7x

variable {F : FTy → Type} [FloatOps F]

class Facts₀ : Prop where
  bcast_S_S16384x1024 : S_.BroadcastsInDim S16384x1024 (![] : Fin 0 → Fin S16384x1024.rank)
  slices_S8396800_S4096_0 : S8396800.Slices ![0] S4096
  slices_S8396800_S4194304_4096 : S8396800.Slices ![4096] S4194304
  shapeCasts_S4194304_S4096x1024 : S4194304.ShapeCasts S4096x1024
  slices_S8396800_S4194304_4198400 : S8396800.Slices ![4198400] S4194304
  slices_S8396800_S4096_8392704 : S8396800.Slices ![8392704] S4096
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  reducesTo_S16384x1024_S16384_d1 : S16384x1024.ReducesTo [1] S16384
  h_S_ : 0 < S_.numel
  bcast_S16384_S16384x1_0 : S16384.BroadcastsInDim S16384x1 (![0] : Fin 1 → Fin S16384x1.rank)
  reducesTo_S4096x1024_S4096_d1 : S4096x1024.ReducesTo [1] S4096
  bcast_S_S16384x4096 : S_.BroadcastsInDim S16384x4096 (![] : Fin 0 → Fin S16384x4096.rank)
  bcast_S16384x1_S16384x4096_0_1 : S16384x1.BroadcastsInDim S16384x4096 (![0, 1] : Fin 2 → Fin S16384x4096.rank)
  dot_S16384x1024_S4096x1024_S16384x4096_1_1_0_0_n_n_wf : DotDims.WF S16384x1024 S4096x1024 S16384x4096 [1] [1] [0] [0] [] []

variable [Facts₀]

def dot_S16384x1024_S4096x1024_S16384x4096_1_1_0_0_n_n : DotDims S16384x1024 S4096x1024 S16384x4096 where
  lhsContracting := [1]
  rhsContracting := [1]
  lhsNonContracting := [0]
  rhsNonContracting := [0]
  lhsBatch := []
  rhsBatch := []
  wf := dot_S16384x1024_S4096x1024_S16384x4096_1_1_0_0_n_n_wf

class Facts : Prop extends Facts₀ where

variable [Facts]
-- ==== Proof.LibKeepdims.lean ====
/-
  A row reduction kept as a column: the three layout steps of `max(x, axis=-1, keepdims=True)` and
  `sum(x, axis=-1, keepdims=True)` on a matrix, each read at coordinates.

  * a `vector.multi_reduction` of an `[a, b]` matrix over its second axis, at row `i`: the fold of `max` from the
    accumulator's value, or the sum, over the row's entries `(i, k)`;
  * an `[a]` vector cast to the column `[a, 1]`, at `(i, u)`: the vector at `i`;
  * an `[a, 1]` column broadcast to `[a, b]`, at `(i, j)`: the column at `(i, 0)`.
-/
import Idealize.ShloMosaic.PureOps.Ideal.Laws
import Idealize.ShloMosaic.Lib.ValueIdx
import Idealize.ShloMosaic.Lib.Pipeline.Value

noncomputable section

namespace Idealize.ShloMosaic.ValueKeepdims

open Idealize.ShloMosaic Idealize.ShloMosaic.ValueIdx

variable {α : Type}

/-- Row `i` with column `k` put back on the reduced second axis is `(i, k)`. -/
theorem lift_axis1_ix2 {a b : ℕ} (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext c; apply Fin.ext
  fin_cases c <;> rfl

/-- A float `vector.multi_reduction <maximumf>` of an `[a, b]` matrix over its second axis, read on the extended reals at
    row `i`: the fold of `max`, from the accumulator's value, over the row's entries. -/
theorem multiReduction_maximumf_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) := by
  rw [Ideal.multiReduction_maximumf_single]
  have hf : (src ∘ h.lift (ix1 i)) = fun k : Fin b => src (ix2 i k) :=
    funext fun k => congrArg src (lift_axis1_ix2 h i k)
  exact congrArg (fun f => Finset.fold max (Ideal.ofBits φ acc) f (Finset.univ : Finset (Fin b))) hf

/-- A float `vector.multi_reduction <add>` of an `[a, b]` matrix over its second axis, read on the extended reals at row
    `i`: the sum of the row's entries. -/
theorem multiReduction_add_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (i : Fin a) :
    multiReduction .add [1] ⟨1, ![a]⟩ src acc h hφ hacc (ix1 i) = ∑ k : Fin b, src (ix2 i k) := by
  rw [Ideal.multiReduction_add_single]
  exact Finset.sum_congr rfl fun k _ => congrArg src (lift_axis1_ix2 h i k)

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `[a, 1]` column broadcast to `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

end Idealize.ShloMosaic.ValueKeepdims

end
-- ==== Proof.LibERealSum.lean ====
/-
  Finite sums of real numbers inside the extended reals.

  `coe_sum`: the coercion `ℝ → EReal` commutes with a finite sum (Mathlib states it for `+` and for `*`, not for `∑`).
  `lowrank_swap`: for real `s`, `u : ι → ℝ`, `B : ι → κ → ℝ`, `a : κ → ℝ` over finite index types,

      ∑ᵣ (s · ∑ₙ uₙ · Bₙᵣ) · aᵣ  =  ∑ₙ uₙ · (s · ∑ᵣ aᵣ · Bₙᵣ)        (as extended reals)

  — a vector pushed through a rank-κ factorization from either end. It is an identity of REAL numbers (distributivity and an
  exchange of two finite sums); on the extended reals it fails at the infinities, which is why it is stated over
  coercions.
-/
import Mathlib.Data.EReal.Operations
import Mathlib.Algebra.BigOperators.Ring.Finset
import Mathlib.Algebra.BigOperators.Group.Finset.Sigma
import Mathlib.Tactic.Ring

namespace Cert.Lib.ERealSum

/-- The coercion of a finite real sum is the sum of the coercions. -/
theorem coe_sum {ι : Type*} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- `∑ᵣ (s · ∑ₙ uₙ·Bₙᵣ) · aᵣ = ∑ₙ uₙ · (s · ∑ᵣ aᵣ·Bₙᵣ)` on real numbers, read in the extended reals: both are
    `s · ∑ₙ ∑ᵣ uₙ·Bₙᵣ·aᵣ`, by distributivity and the exchange of the two finite sums. -/
theorem lowrank_swap {ι κ : Type*} [Fintype ι] [Fintype κ] (s : ℝ) (u : ι → ℝ) (Bm : ι → κ → ℝ) (a : κ → ℝ) :
    ∑ r, ((s : EReal) * ∑ n, (u n : EReal) * (Bm n r : EReal)) * (a r : EReal)
      = ∑ n, (u n : EReal) * ((s : EReal) * ∑ r, (a r : EReal) * (Bm n r : EReal)) := by
  simp only [← EReal.coe_mul, ← coe_sum]
  refine congrArg _ ?_
  simp only [Finset.mul_sum, Finset.sum_mul]
  rw [Finset.sum_comm]
  exact Finset.sum_congr rfl fun n _ => Finset.sum_congr rfl fun r _ => by ring

end Cert.Lib.ERealSum
-- ==== Proof.LibRealWord.lean ====
/-
  An IEEE-754 bit pattern whose exponent field is not all ones denotes a real number.

  A pattern with sign bit, `e` exponent bits and `m` significand bits reads on the extended reals as a zero or
  subnormal `± T · 2^(1 - bias - m)`, a normal `± (2^m + T) · 2^(E - bias - m)`, or — only when the exponent field is
  all ones — an infinity or a NaN. So away from the all-ones exponent the value is (the coercion of) a real number
  (`ieee_real`), in particular for an f32 word (`ofBits_f32_real`): the hypothesis is a closed statement about the
  word's bits that `decide` settles for a literal.
-/
import Idealize.ShloMosaic.PureOps.Ideal

noncomputable section

namespace Cert.Lib.RealWord

open Idealize.ShloMosaic

/-- An IEEE pattern whose exponent field is not all ones denotes a real number. -/
theorem ieee_real (e m : Nat) {w : Nat} (b : BitVec w) (h : (b.extractLsb' m e).toNat ≠ 2 ^ e - 1) :
    ∃ r : ℝ, Ideal.ieee e m b = (r : EReal) := by
  unfold Ideal.ieee
  dsimp only
  rw [if_neg h]
  split
  · exact ⟨_, rfl⟩
  · exact ⟨_, rfl⟩

/-- An f32 word whose eight exponent bits are not all ones denotes a real number. -/
theorem ofBits_f32_real (b : BitVec 32) (h : (b.extractLsb' 23 8).toNat ≠ 2 ^ 8 - 1) :
    ∃ r : ℝ, Ideal.ofBits .f32 b = (r : EReal) :=
  ieee_real 8 23 b h

end Cert.Lib.RealWord

end
-- ==== Proof.Spec.lean ====
/-
  The paraboloid neuron response, entry by entry, in the two arrangements the two programs compute, and the law that
  joins them.

  For a batch row `b` and a neuron `n`, write `x` for the scaled input row (`s · input[b, ·]`, `s` the f32 word of
  0.01), `h`, `p` for the neuron's two parameter rows and `h0`, `p0` for its two offsets. With

      hs = ∑ x·h + h0,   xp = ∑ x·p,   xx = ∑ x·x,   pp = ∑ p·p,

  one program computes  `o · (((hs·hs + t·xp) - xx) + (p0 - pp))`  and the other
  `o · ((hs·hs - ((xx - t·xp) + pp)) + p0)`  (`t`, `o` the f32 words of 2 and 0.1). Over the real numbers both are
  `o · (hs² + t·xp - xx - pp + p0)`; on the extended reals the regrouping of the subtractions needs every term to be a
  real number, which is what the finiteness of the inputs gives. The parameters arrive packed in one vector
  `[h0 (4096) | h (4096·1024) | p (4096·1024) | p0 (4096)]`; `h0At` … `p0At` are the positions of the four parts.
-/
import Idealize.ShloMosaic.PureOps.Ideal
import Idealize.ShloMosaic.Lib.ValueIdx
import proofs.«160361_j47347719471158_2_alg».proof.Proof.LibERealSum
import proofs.«160361_j47347719471158_2_alg».proof.Proof.LibRealWord

noncomputable section

open scoped BigOperators

namespace Cert.Paraboloid

open Idealize.ShloMosaic Idealize.ShloMosaic.ValueIdx

/-! ## The two arrangements over one row -/

/-- The first arrangement as one block of the computation sees it: the squared-distance terms are added one by one
    onto `hs·hs`, and the last term `c` arrives already folded; the input is scaled from the right. -/
def formK {ι : Type} [Fintype ι] (s t o : EReal) (x h p : ι → EReal) (h0 c : EReal) : EReal :=
  o * (((((∑ d, (x d * s) * h d) + h0) * ((∑ d, (x d * s) * h d) + h0) + t * ∑ d, (x d * s) * p d)
        - ∑ d, (x d * s) * (x d * s)) + c)

/-- The first arrangement: `formK` with the folded term `c = p0 - pp`. -/
def formA {ι : Type} [Fintype ι] (s t o : EReal) (x h p : ι → EReal) (h0 p0 : EReal) : EReal :=
  formK s t o x h p h0 (p0 - ∑ d, p d * p d)

/-- The second arrangement: the squared distance `xx - t·xp + pp` is formed first and subtracted whole; the input is
    scaled from the left. -/
def formB {ι : Type} [Fintype ι] (s t o : EReal) (x h p : ι → EReal) (h0 p0 : EReal) : EReal :=
  o * (((((∑ d, (s * x d) * h d) + h0) * ((∑ d, (s * x d) * h d) + h0))
        - (((∑ d, (s * x d) * (s * x d)) - t * ∑ d, (s * x d) * p d) + ∑ d, p d * p d)) + p0)

/-- On real data the two arrangements agree: both are `o · (hs² + t·xp - xx - pp + p0)`. -/
theorem formA_eq_formB {ι : Type} [Fintype ι] (s t o : ℝ) (x h p : ι → ℝ) (h0 p0 : ℝ) :
    formA (s : EReal) t o (fun d => (x d : EReal)) (fun d => (h d : EReal)) (fun d => (p d : EReal)) h0 p0
      = formB (s : EReal) t o (fun d => (x d : EReal)) (fun d => (h d : EReal)) (fun d => (p d : EReal)) h0 p0 := by
  unfold formA formK formB
  simp only [← EReal.coe_mul, ← Cert.Lib.ERealSum.coe_sum, ← EReal.coe_add, ← EReal.coe_sub]
  refine congrArg (fun r : ℝ => (r : EReal)) ?_
  have e1 : ∑ d, x d * s * h d = ∑ d, s * x d * h d := Finset.sum_congr rfl fun d _ => by ring
  have e2 : ∑ d, x d * s * p d = ∑ d, s * x d * p d := Finset.sum_congr rfl fun d _ => by ring
  have e3 : ∑ d, x d * s * (x d * s) = ∑ d, s * x d * (s * x d) := Finset.sum_congr rfl fun d _ => by ring
  rw [e1, e2, e3]
  ring

/-! ## The packed parameter vector -/

/-- Position of `h0[n]`. -/
def h0At (n : Fin 4096) : Fin 8396800 := ⟨n.val, by have := n.isLt; omega⟩
/-- Position of `h[n, d]`. -/
def hAt (n : Fin 4096) (d : Fin 1024) : Fin 8396800 := ⟨4096 + (n.val * 1024 + d.val), by have := n.isLt; have := d.isLt; omega⟩
/-- Position of `p[n, d]`. -/
def pAt (n : Fin 4096) (d : Fin 1024) : Fin 8396800 := ⟨4198400 + (n.val * 1024 + d.val), by have := n.isLt; have := d.isLt; omega⟩
/-- Position of `p0[n]`. -/
def p0At (n : Fin 4096) : Fin 8396800 := ⟨8392704 + n.val, by have := n.isLt; omega⟩

/-! ## The result arrays -/

abbrev SIn : Shape := ⟨2, ![16384, 1024]⟩
abbrev SPars : Shape := ⟨1, ![8396800]⟩
abbrev SOut : Shape := ⟨2, ![16384, 4096]⟩

/-- The first arrangement at every entry `(b, n)` of the result, from the input matrix and the packed parameters. -/
def resultA (X : SIn.Idx → EReal) (P : SPars.Idx → EReal) : SOut.Idx → EReal := fun i =>
  formA (Ideal.ofBits .f32 0x3C23D70A#32) (Ideal.ofBits .f32 0x40000000#32) (Ideal.ofBits .f32 0x3DCCCCCD#32)
    (fun d : Fin 1024 => X (ix2 (i 0) d)) (fun d => P (ix1 (hAt (i 1) d))) (fun d => P (ix1 (pAt (i 1) d)))
    (P (ix1 (h0At (i 1)))) (P (ix1 (p0At (i 1))))

/-- The second arrangement at every entry. -/
def resultB (X : SIn.Idx → EReal) (P : SPars.Idx → EReal) : SOut.Idx → EReal := fun i =>
  formB (Ideal.ofBits .f32 0x3C23D70A#32) (Ideal.ofBits .f32 0x40000000#32) (Ideal.ofBits .f32 0x3DCCCCCD#32)
    (fun d : Fin 1024 => X (ix2 (i 0) d)) (fun d => P (ix1 (hAt (i 1) d))) (fun d => P (ix1 (pAt (i 1) d)))
    (P (ix1 (h0At (i 1)))) (P (ix1 (p0At (i 1))))

/-- When every input entry is a real number the two result arrays are equal (the three literal words are real
    numbers whatever their exact values). -/
theorem resultA_eq_resultB (X : SIn.Idx → EReal) (P : SPars.Idx → EReal)
    (hX : ∀ i, ∃ r : ℝ, X i = (r : EReal)) (hP : ∀ j, ∃ r : ℝ, P j = (r : EReal)) : resultA X P = resultB X P := by
  choose x hx using hX
  choose p hp using hP
  obtain ⟨s, hs⟩ := Cert.Lib.RealWord.ofBits_f32_real 0x3C23D70A#32 (by decide)
  obtain ⟨t, ht⟩ := Cert.Lib.RealWord.ofBits_f32_real 0x40000000#32 (by decide)
  obtain ⟨o, ho⟩ := Cert.Lib.RealWord.ofBits_f32_real 0x3DCCCCCD#32 (by decide)
  funext i
  unfold resultA resultB
  simp only [hx, hp, hs, ht, ho]
  exact formA_eq_formB s t o _ _ _ _ _

end Cert.Paraboloid

end
-- ==== Proof.Payload.lean ====
/-
  One block of the computation, entry by entry.

  The body works on a 1024-row block of the input (`x0`), the 1024-neuron blocks of the two parameter matrices (`x1`,
  `x2`, rows = neurons) and the matching 1024 entries of the two offset rows (`x3`: `h0`; `x4`: the folded `p0 - pp`).
  Its stored value at row `a` and neuron `q` of the block is the first arrangement `formK` of row `a` of `x0` against rows
  `q` of `x1` and `x2`: the two block products contract the second axis of both operands, the offset rows are spread
  over the rows of the block, and the row sum of squares is kept as a column and spread over the columns.
-/
import proofs.«160361_j47347719471158_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value
import proofs.«160361_j47347719471158_2_alg».proof.Proof.LibKeepdims
import proofs.«160361_j47347719471158_2_alg».proof.Proof.Spec

noncomputable section

open scoped BigOperators

namespace Cert.Paraboloid.Body

open Idealize.ShloMosaic Idealize.ShloMosaic.ValueIdx Cert.KernelIdeal Cert.KernelIdeal.Gen Cert.Paraboloid

/-- The left operand's row coordinate at an output entry is the entry's row. -/
theorem lhs_row (i : S1024x1024.Idx) (k : dot_S1024x1024_S1024x1024_S1024x1024_1_1_0_0_n_n.contr.Idx) : (dot_S1024x1024_S1024x1024_S1024x1024_1_1_0_0_n_n.lhsIdx i k 0).val = (i 0).val := by
  unfold DotDims.lhsIdx
  rw [dif_neg (show ¬(0 : Fin S1024x1024.rank) ∈ dot_S1024x1024_S1024x1024_S1024x1024_1_1_0_0_n_n.lhsBatch by decide),
    dif_pos (show (0 : Fin S1024x1024.rank) ∈ dot_S1024x1024_S1024x1024_S1024x1024_1_1_0_0_n_n.lhsNonContracting by decide)]
  rfl

/-- The right operand's row coordinate at an output entry is the entry's column. -/
theorem rhs_row (i : S1024x1024.Idx) (k : dot_S1024x1024_S1024x1024_S1024x1024_1_1_0_0_n_n.contr.Idx) : (dot_S1024x1024_S1024x1024_S1024x1024_1_1_0_0_n_n.rhsIdx i k 0).val = (i 1).val := by
  unfold DotDims.rhsIdx
  rw [dif_neg (show ¬(0 : Fin S1024x1024.rank) ∈ dot_S1024x1024_S1024x1024_S1024x1024_1_1_0_0_n_n.rhsBatch by decide),
    dif_pos (show (0 : Fin S1024x1024.rank) ∈ dot_S1024x1024_S1024x1024_S1024x1024_1_1_0_0_n_n.rhsNonContracting by decide)]
  rfl

/-- A block product contracting the second axis of both operands, into the zero accumulator: at `(a, q)` it is the
    sum over `d` of the left operand at `(a, d)` times the right at `(q, d)`. -/
theorem matmul_rows {φ₁ φ₂ : FTy} (l : FVec Ideal S1024x1024 φ₁) (r : FVec Ideal S1024x1024 φ₂) (a q : Fin 1024) :
    matmul dot_S1024x1024_S1024x1024_S1024x1024_1_1_0_0_n_n none l r (constant (F := Ideal) S1024x1024 .f32 0x00000000#32) (ix2 a q)
      = ∑ d : Fin 1024, l (ix2 a d) * r (ix2 q d) := by
  simp only [matmul]
  rw [Ideal.matmul_constant_zero_apply, ← Equiv.sum_comp (contrEquiv1 dot_S1024x1024_S1024x1024_S1024x1024_1_1_0_0_n_n 1024 rfl rfl).symm]
  refine Finset.sum_congr rfl fun k _ => ?_
  have hk := contrEquiv1_symm_val dot_S1024x1024_S1024x1024_S1024x1024_1_1_0_0_n_n 1024 rfl rfl k
  have el : dot_S1024x1024_S1024x1024_S1024x1024_1_1_0_0_n_n.lhsIdx (ix2 a q) ((contrEquiv1 dot_S1024x1024_S1024x1024_S1024x1024_1_1_0_0_n_n 1024 rfl rfl).symm k) = ix2 a k := funext fun ax => Fin.ext (by
    match ax with
    | ⟨0, _⟩ => exact lhs_row _ _
    | ⟨1, _⟩ => exact (dot_S1024x1024_S1024x1024_S1024x1024_1_1_0_0_n_n.lhsIdx_val_of_single rfl _ _).trans hk)
  have er : dot_S1024x1024_S1024x1024_S1024x1024_1_1_0_0_n_n.rhsIdx (ix2 a q) ((contrEquiv1 dot_S1024x1024_S1024x1024_S1024x1024_1_1_0_0_n_n 1024 rfl rfl).symm k) = ix2 q k := funext fun ax => Fin.ext (by
    match ax with
    | ⟨0, _⟩ => exact rhs_row _ _
    | ⟨1, _⟩ => exact (dot_S1024x1024_S1024x1024_S1024x1024_1_1_0_0_n_n.rhsIdx_val_of_single rfl _ _).trans hk)
  rw [el, er]

/-- A one-row block spread over the 1024 rows reads, at `(a, q)`, the row at `q`. -/
theorem row_spread {α : Type} (v : S1x1024.Idx → α) (hc : S1x1024.ShapeCasts S1x1024) (hb : S1x1024.Broadcasts S1024x1024) (a q : Fin 1024) :
    broadcastTo S1024x1024 (shapeCast S1x1024 v hc) hb (ix2 a q) = v (ix2 (0 : Fin 1) q) := by
  rw [shapeCast_self]
  exact broadcastTo_1b_ab_apply v hb a q

/-- The sum of each row kept as a column and spread over the 1024 columns reads, at `(a, q)`, the sum of row `a`. -/
theorem rowsum_spread (w : FVec Ideal S1024x1024 .f32) (hr : S1024x1024.Reduces [1] S1024) (hφ : FKind.Formats .f32)
    (hacc : (0x00000000#32 : BitVec 32) = 0x00000000#32) (hc : S1024.ShapeCasts S1024x1) (hb : S1024x1.Broadcasts S1024x1024) (a q : Fin 1024) :
    broadcastTo S1024x1024 (shapeCast S1024x1 (multiReduction (F := Ideal) .add [1] S1024 w 0x00000000#32 hr hφ hacc) hc) hb (ix2 a q)
      = ∑ d : Fin 1024, w (ix2 a d) :=
  (ValueKeepdims.broadcastTo_a1_ab_apply _ hb a q).trans
    ((ValueKeepdims.shapeCast_a_a1_apply _ hc a 0).trans (ValueKeepdims.multiReduction_add_row w _ hr hφ hacc a))

/-- The stored value of one block at `(a, q)`. -/
theorem payload_apply (x0 : Vec Ideal S1024x1024 .f32) (x1 x2 : Vec Ideal S1024x1024 .bf16) (x3 x4 : Vec Ideal S1x1024 .f32) (a q : Fin 1024) :
    k0_pay1 (F := Ideal) x0 x1 x2 x3 x4 (ix2 a q)
      = formK (Ideal.ofBits .f32 0x3C23D70A#32) (Ideal.ofBits .f32 0x40000000#32) (Ideal.ofBits .f32 0x3DCCCCCD#32)
          (fun d : Fin 1024 => x0 (ix2 a d)) (fun d => x1 (ix2 q d)) (fun d => x2 (ix2 q d))
          (x3 (ix2 (0 : Fin 1) q)) (x4 (ix2 (0 : Fin 1) q)) := by
  unfold k0_pay1 formK
  simp only [mulf_apply, addf_apply, subf_apply, broadcast_apply]
  rw [matmul_rows, matmul_rows, row_spread, row_spread, rowsum_spread]
  simp only [truncf_apply, mulf_apply, broadcast_apply, Ideal.ofBits_def, shapeCast_self]

end Cert.Paraboloid.Body

end
-- ==== Proof.HostPrefix.lean ====
/-
  What the region finds in the four parameter arrays the host prepares, entry by entry.

  Before the call the packed parameter vector `P` is cut into its four parts: the two 4096·1024 stretches are re-laid as
  4096 × 1024 matrices (row = neuron) and passed on in a narrower float format (the identity on the extended reals);
  the first 4096 entries become the row `h0`; and the last 4096, less each neuron's sum of squares of its `p` row, become
  the folded row `c = p0 - pp`. So the four arrays read `P` at `hAt`, `pAt`, `h0At`, and `P (p0At n) - ∑ P(pAt n ·)²`.
-/
import proofs.«160361_j47347719471158_2_alg».proof.Proof.Gen.KernelIdeal.Frame
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws
import proofs.«160361_j47347719471158_2_alg».proof.Proof.LibKeepdims
import proofs.«160361_j47347719471158_2_alg».proof.Proof.Spec

noncomputable section

open scoped BigOperators

namespace Cert.Paraboloid.Prefix

open Idealize.ShloMosaic Idealize.ShloMosaic.TcCoe Idealize.ShloMosaic.ValueIdx Idealize.ShloMosaic.StableHlo
open Cert.KernelIdeal Cert.KernelIdeal.Gen Cert.Paraboloid

/-! ## The packed vector's parts, read at coordinates -/

/-- A stretch of 4096·1024 entries starting at `off`, re-laid as a 4096 × 1024 matrix: entry `(n, d)` is the vector at
    `off + (1024·n + d)`. -/
theorem packed_rows {α : Type} (off : Nat) (P : S8396800.Idx → α) (hs : S8396800.Slices ![off] S4194304)
    (hc : S4194304.ShapeCasts S4096x1024) (n : Fin 4096) (d : Fin 1024) (hlt : off + (n.val * 1024 + d.val) < 8396800) :
    shapeCast S4096x1024 (extractStridedSlice S4194304 ![off] P hs) hc (ix2 n d)
      = P (ix1 (⟨off + (n.val * 1024 + d.val), hlt⟩ : Fin 8396800)) := by
  have hn := n.isLt
  have hd := d.isLt
  refine (shapeCast_apply _ hc (ix2 n d) (ix1 (⟨n.val * 1024 + d.val, by omega⟩ : Fin 4194304)) ?_).trans ?_
  · rw [Shape.rowMajor_val_one, Shape.rowMajor_val_two]
    rfl
  · exact extractStridedSlice_apply ![off] P hs _ _ (fun a => match a with | ⟨0, _⟩ => rfl)

/-- A stretch of 4096 entries starting at `off`: entry `n` is the vector at `off + n`. -/
theorem packed_offsets {α : Type} (off : Nat) (P : S8396800.Idx → α) (hs : S8396800.Slices ![off] S4096) (n : Fin 4096)
    (hlt : off + n.val < 8396800) :
    extractStridedSlice S4096 ![off] P hs (ix1 n) = P (ix1 (⟨off + n.val, hlt⟩ : Fin 8396800)) :=
  extractStridedSlice_apply ![off] P hs _ _ (fun a => match a with | ⟨0, _⟩ => rfl)

/-- The host's sum over the second axis of a 4096 × 1024 matrix from the zero initial value, at row `n`: the sum of
    the row's entries. -/
theorem host_rowsum (w : FVec Ideal S4096x1024 .f32) (h' : S4096x1024.ReducesTo [1] S4096) (h0 : 0 < S_.numel) (n : Fin 4096) :
    Host.reduceAdd w (constant (F := Ideal) S_ .f32 0x00000000#32) h' h0 (ix1 n) = ∑ d : Fin 1024, w (ix2 n d) := by
  simp only [Host.reduceAdd, Ideal.hostReduceAdd_def]
  rw [Ideal.hostReduceAdd_single h' (by decide)]
  show Ideal.ofBits .f32 0x00000000#32 + _ = _
  rw [Ideal.ofBits_zero_f32, zero_add]
  exact Finset.sum_congr rfl fun k _ => congrArg w (ValueKeepdims.lift_axis1_ix2 _ n k)

/-! ## The four arrays as the region finds them -/

variable (m : (ℓ : Loc nD τ sig) → Buf (Elt Ideal) ℓ)

/-- The packed parameter vector at launch, on core `c`. -/
abbrev pars (c : Dev nD) : S8396800.Idx → EReal := m ((c : Thread nD τ).loc main_arg1)

/-- The `h` matrix the region finds: entry `(n, d)` is the packed vector at `hAt n d`. -/
theorem V_h_apply (c : Dev nD) (n : Fin 4096) (d : Fin 1024) :
    (V m c main_v6 : S4096x1024.Idx → EReal) (ix2 n d) = pars m c (ix1 (hAt n d)) := by
  have e : (V m c main_v6 : S4096x1024.Idx → EReal)
      = truncf (F := Ideal) .bf16 (shapeCast S4096x1024 (extractStridedSlice S4194304 ![4096] (pars m c) slices_S8396800_S4194304_4096)
          shapeCasts_S4194304_S4096x1024) bitsLt_bf16_f32 := by
    dsimp only [V, hostOps0]; after_results; rfl
  rw [e, truncf_apply]
  exact packed_rows 4096 (pars m c) _ _ n d (by have := n.isLt; have := d.isLt; omega)

/-- The `p` matrix the region finds: entry `(n, d)` is the packed vector at `pAt n d`. -/
theorem V_p_apply (c : Dev nD) (n : Fin 4096) (d : Fin 1024) :
    (V m c main_v7 : S4096x1024.Idx → EReal) (ix2 n d) = pars m c (ix1 (pAt n d)) := by
  have e : (V m c main_v7 : S4096x1024.Idx → EReal)
      = truncf (F := Ideal) .bf16 (shapeCast S4096x1024 (extractStridedSlice S4194304 ![4198400] (pars m c) slices_S8396800_S4194304_4198400)
          shapeCasts_S4194304_S4096x1024) bitsLt_bf16_f32 := by
    dsimp only [V, hostOps0]; after_results; rfl
  rw [e, truncf_apply]
  exact packed_rows 4198400 (pars m c) _ _ n d (by have := n.isLt; have := d.isLt; omega)

/-- The `h0` row the region finds: entry `(0, n)` is the packed vector at `h0At n`. -/
theorem V_h0_apply (c : Dev nD) (n : Fin 4096) :
    (V m c main_v12 : S1x4096.Idx → EReal) (ix2 (0 : Fin 1) n) = pars m c (ix1 (h0At n)) := by
  have e : (V m c main_v12 : S1x4096.Idx → EReal)
      = shapeCast S1x4096 (extractStridedSlice S4096 ![0] (pars m c) slices_S8396800_S4096_0) shapeCasts_S4096_S1x4096 := by
    dsimp only [V, hostOps0]; after_results; rfl
  rw [e]
  refine (shapeCast_a_1a_apply _ _ (0 : Fin 1) n).trans ?_
  refine (packed_offsets 0 (pars m c) _ n (by have := n.isLt; omega)).trans ?_
  exact congrArg (pars m c) (funext fun a => Fin.ext (by match a with | ⟨0, _⟩ => exact Nat.zero_add _))

/-- The folded row `c` the region finds: entry `(0, n)` is `P (p0At n)` less the sum of squares of neuron `n`'s `p` row. -/
theorem V_c_apply (c : Dev nD) (n : Fin 4096) :
    (V m c main_v11 : S1x4096.Idx → EReal) (ix2 (0 : Fin 1) n)
      = pars m c (ix1 (p0At n)) - ∑ d : Fin 1024, pars m c (ix1 (pAt n d)) * pars m c (ix1 (pAt n d)) := by
  have e : (V m c main_v11 : S1x4096.Idx → EReal)
      = shapeCast S1x4096 (subf (extractStridedSlice S4096 ![8392704] (pars m c) slices_S8396800_S4096_8392704)
          (Host.reduceAdd
            (mulf (shapeCast S4096x1024 (extractStridedSlice S4194304 ![4198400] (pars m c) slices_S8396800_S4194304_4198400) shapeCasts_S4194304_S4096x1024)
              (shapeCast S4096x1024 (extractStridedSlice S4194304 ![4198400] (pars m c) slices_S8396800_S4194304_4198400) shapeCasts_S4194304_S4096x1024))
            (constant (F := Ideal) S_ .f32 0x00000000#32) reducesTo_S4096x1024_S4096_d1 h_S_)) shapeCasts_S4096_S1x4096 := by
    dsimp only [V, hostOps0]; after_results; rfl
  rw [e]
  refine (shapeCast_a_1a_apply _ _ (0 : Fin 1) n).trans ?_
  rw [subf_apply, host_rowsum, packed_offsets 8392704 (pars m c) _ n (by have := n.isLt; omega)]
  refine congrArg₂ (· - ·) rfl (Finset.sum_congr rfl fun d _ => ?_)
  rw [mulf_apply, packed_rows 4198400 (pars m c) _ _ n d (by have := n.isLt; have := d.isLt; omega)]
  rfl

end Cert.Paraboloid.Prefix

end
-- ==== Proof.Blocks.lean ====
/-
  From blocks to the whole result array.

  The grid has 4 × 16 points; point `(j, i)` works on rows `1024·i …` of the input, neurons `1024·j …` of the four
  parameter arrays, and writes rows `1024·i …`, columns `1024·j …` of the result. What it writes at `(a, q)` of its block is
  the first arrangement at the array entry `(1024·i + a, 1024·j + q)` (`block_value`: the block's loads are the arrays read
  at those rows and neurons). The 64 blocks tile the result, so after the run the result array is `resultA` of the input
  and the packed parameters everywhere.
-/
import proofs.«160361_j47347719471158_2_alg».proof.Proof.Gen.KernelIdeal.Value
import proofs.«160361_j47347719471158_2_alg».proof.Proof.Payload
import proofs.«160361_j47347719471158_2_alg».proof.Proof.HostPrefix
import proofs.«160361_j47347719471158_2_alg».proof.Proof.Spec

noncomputable section

open scoped BigOperators

namespace Cert.Paraboloid.Blocks

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Value Cert.Paraboloid

/-! ## One block, from what its loads are -/

/-- If the block's loads are the arrays read at batch row `b` and neuron `n`, the stored value at `(a, q)` is the first
    arrangement at `(b, n)`. -/
theorem block_value (X : SIn.Idx → EReal) (P : SPars.Idx → EReal)
    (x0 : Vec Ideal S1024x1024 .f32) (x1 x2 : Vec Ideal S1024x1024 .bf16) (x3 x4 : Vec Ideal S1x1024 .f32)
    (y : S1024x1024.Idx) (a q : Fin 1024) (b : Fin 16384) (n : Fin 4096) (hy : y = ix2 a q)
    (h0 : ∀ d : Fin 1024, x0 (ix2 a d) = X (ix2 b d))
    (h1 : ∀ d : Fin 1024, x1 (ix2 q d) = P (ix1 (hAt n d)))
    (h2 : ∀ d : Fin 1024, x2 (ix2 q d) = P (ix1 (pAt n d)))
    (h3 : x3 (ix2 (0 : Fin 1) q) = P (ix1 (h0At n)))
    (h4 : x4 (ix2 (0 : Fin 1) q) = P (ix1 (p0At n)) - ∑ d : Fin 1024, P (ix1 (pAt n d)) * P (ix1 (pAt n d))) :
    k0_pay1 (F := Ideal) x0 x1 x2 x3 x4 y = resultA X P (ix2 b n) := by
  subst hy
  rw [Body.payload_apply]
  unfold resultA formA
  simp only [h0, h1, h2, h3, h4]

/-! ## The blocks of the five input windows, read off their arrays -/

variable (m : (ℓ : Loc nD τ sig) → Buf (Elt Ideal) ℓ) (ρ : Dev nD → PrngReg)

/-- The input matrix at launch, on core `c`. -/
abbrev inputs (c : Dev nD) : S16384x1024.Idx → EReal := m ((c : Thread nD τ).loc main_arg0)

theorem hz : (![0, 0] : Fin 2 → Nat) = fun _ => 0 := funext fun a => by fin_cases a <;> rfl

/-- Entry `y` of the input window's block at point `t` is the input at the block's offset plus `y`. -/
theorem read_x (c : Dev nD) (t : Fin cfg0.N) (y : S1024x1024.Idx) (k : S16384x1024.Idx)
    (hk0 : (k 0).val = win0_0.index t (0 : Fin 2) * 1024 + (y 0).val)
    (hk1 : (k 1).val = win0_0.index t (1 : Fin 2) * 1024 + (y 1).val) :
    (iblk m c 0 t : S1024x1024.Idx → EReal) y = inputs m c k := by
  unfold iblk
  rw [View.read_apply]
  show (V m c main_arg0 : S16384x1024.Idx → EReal) _ = _
  rw [V_main_arg0]
  refine congrArg _ (funext fun a => Fin.ext ?_)
  match a with
  | ⟨0, _⟩ => show win0_0.index t (0 : Fin 2) * 1024 + 1 * (y 0).val = (k 0).val; omega
  | ⟨1, _⟩ => show win0_0.index t (1 : Fin 2) * 1024 + 1 * (y 1).val = (k 1).val; omega

/-- Entry `y` of the `h` window's block at point `t`. -/
theorem read_h (c : Dev nD) (t : Fin cfg0.N) (y : S1024x1024.Idx) (k : S4096x1024.Idx)
    (hk0 : (k 0).val = win0_1.index t (0 : Fin 2) * 1024 + (y 0).val)
    (hk1 : (k 1).val = win0_1.index t (1 : Fin 2) * 1024 + (y 1).val) :
    (iblk m c 1 t : S1024x1024.Idx → EReal) y = (V m c main_v6 : S4096x1024.Idx → EReal) k := by
  unfold iblk
  rw [View.read_apply]
  show (V m c main_v6 : S4096x1024.Idx → EReal) _ = _
  refine congrArg _ (funext fun a => Fin.ext ?_)
  match a with
  | ⟨0, _⟩ => show win0_1.index t (0 : Fin 2) * 1024 + 1 * (y 0).val = (k 0).val; omega
  | ⟨1, _⟩ => show win0_1.index t (1 : Fin 2) * 1024 + 1 * (y 1).val = (k 1).val; omega

/-- Entry `y` of the `p` window's block at point `t`. -/
theorem read_p (c : Dev nD) (t : Fin cfg0.N) (y : S1024x1024.Idx) (k : S4096x1024.Idx)
    (hk0 : (k 0).val = win0_2.index t (0 : Fin 2) * 1024 + (y 0).val)
    (hk1 : (k 1).val = win0_2.index t (1 : Fin 2) * 1024 + (y 1).val) :
    (iblk m c 2 t : S1024x1024.Idx → EReal) y = (V m c main_v7 : S4096x1024.Idx → EReal) k := by
  unfold iblk
  rw [View.read_apply]
  show (V m c main_v7 : S4096x1024.Idx → EReal) _ = _
  refine congrArg _ (funext fun a => Fin.ext ?_)
  match a with
  | ⟨0, _⟩ => show win0_2.index t (0 : Fin 2) * 1024 + 1 * (y 0).val = (k 0).val; omega
  | ⟨1, _⟩ => show win0_2.index t (1 : Fin 2) * 1024 + 1 * (y 1).val = (k 1).val; omega

/-- Entry `y` of the `h0` window's block at point `t`. -/
theorem read_h0 (c : Dev nD) (t : Fin cfg0.N) (y : S1x1024.Idx) (k : S1x4096.Idx)
    (hk0 : (k 0).val = win0_3.index t (0 : Fin 2) * 1 + (y 0).val)
    (hk1 : (k 1).val = win0_3.index t (1 : Fin 2) * 1024 + (y 1).val) :
    (iblk m c 3 t : S1x1024.Idx → EReal) y = (V m c main_v12 : S1x4096.Idx → EReal) k := by
  unfold iblk
  rw [View.read_apply]
  show (V m c main_v12 : S1x4096.Idx → EReal) _ = _
  refine congrArg _ (funext fun a => Fin.ext ?_)
  match a with
  | ⟨0, _⟩ => show win0_3.index t (0 : Fin 2) * 1 + 1 * (y 0).val = (k 0).val; omega
  | ⟨1, _⟩ => show win0_3.index t (1 : Fin 2) * 1024 + 1 * (y 1).val = (k 1).val; omega

/-- Entry `y` of the folded-offset window's block at point `t`. -/
theorem read_c (c : Dev nD) (t : Fin cfg0.N) (y : S1x1024.Idx) (k : S1x4096.Idx)
    (hk0 : (k 0).val = win0_4.index t (0 : Fin 2) * 1 + (y 0).val)
    (hk1 : (k 1).val = win0_4.index t (1 : Fin 2) * 1024 + (y 1).val) :
    (iblk m c 4 t : S1x1024.Idx → EReal) y = (V m c main_v11 : S1x4096.Idx → EReal) k := by
  unfold iblk
  rw [View.read_apply]
  show (V m c main_v11 : S1x4096.Idx → EReal) _ = _
  refine congrArg _ (funext fun a => Fin.ext ?_)
  match a with
  | ⟨0, _⟩ => show win0_4.index t (0 : Fin 2) * 1 + 1 * (y 0).val = (k 0).val; omega
  | ⟨1, _⟩ => show win0_4.index t (1 : Fin 2) * 1024 + 1 * (y 1).val = (k 1).val; omega

/-! ## The index maps over the grid -/

/-- The printed index maps, decided over the 64 points: the input moves with the result's row block, the four
    parameter arrays with its column block, and the result's block indices stay in 16 × 4. -/
theorem idx_facts : ∀ t : Fin cfg0.N,
    win0_0.index t (0 : Fin 2) = win0_5.index t (0 : Fin 2) ∧ win0_0.index t (1 : Fin 2) = 0
    ∧ win0_1.index t (0 : Fin 2) = win0_5.index t (1 : Fin 2) ∧ win0_1.index t (1 : Fin 2) = 0
    ∧ win0_2.index t (0 : Fin 2) = win0_5.index t (1 : Fin 2) ∧ win0_2.index t (1 : Fin 2) = 0
    ∧ win0_3.index t (0 : Fin 2) = 0 ∧ win0_3.index t (1 : Fin 2) = win0_5.index t (1 : Fin 2)
    ∧ win0_4.index t (0 : Fin 2) = 0 ∧ win0_4.index t (1 : Fin 2) = win0_5.index t (1 : Fin 2)
    ∧ win0_5.index t (0 : Fin 2) ≤ 15 ∧ win0_5.index t (1 : Fin 2) ≤ 3 :=
  (by decide +kernel : ∀ t : Fin grid0.N, _)

/-- Every block of the 16 × 4 tiling is some point's. -/
theorem idx_onto : ∀ (q0 : Fin 16) (q1 : Fin 4), ∃ t : Fin cfg0.N, win0_5.index t = ![q0.val, q1.val] :=
  (by decide +kernel : ∀ (q0 : Fin 16) (q1 : Fin 4), ∃ t : Fin grid0.N, win0_5.index t = ![q0.val, q1.val])

/-! ## What a point writes back, the cover, the final array -/

/-- Point `t` writes back block `t` of `resultA` of the input and the packed parameters. -/
theorem flushed_eq (c : Dev nD) (t : Fin cfg0.N) :
    (dats m 0 c).flushed 5 t = ((cfg0.win 5).blk t).view.read (Elt Ideal) (resultA (inputs m c) (Prefix.pars m c)) := by
  rw [flushed5 m c t]
  unfold out0_5
  rw [View.canon_unit_zero hz]
  simp only [View.ld_unit_zero (S := S1024x1024) hz, View.ld_unit_zero (S := S1x1024) hz]
  obtain ⟨e00, e01, e10, e11, e20, e21, e30, e31, e40, e41, b0, b1⟩ := idx_facts t
  funext j
  show k0_pay1 (F := Ideal) (iblk m c 0 t) (iblk m c 1 t) (iblk m c 2 t) (iblk m c 3 t) (iblk m c 4 t) j
      = resultA (inputs m c) (Prefix.pars m c) (((cfg0.win 5).blk t).view.emb j)
  have hj0 : (j 0).val < 1024 := (j 0).isLt
  have hj1 : (j 1).val < 1024 := (j 1).isLt
  have hemb : ((cfg0.win 5).blk t).view.emb j
      = ix2 (⟨win0_5.index t (0 : Fin 2) * 1024 + (j 0).val, by omega⟩ : Fin 16384)
          (⟨win0_5.index t (1 : Fin 2) * 1024 + (j 1).val, by omega⟩ : Fin 4096) := by
    funext a; apply Fin.ext
    match a with
    | ⟨0, _⟩ => show win0_5.index t (0 : Fin 2) * 1024 + 1 * (j 0).val = win0_5.index t (0 : Fin 2) * 1024 + (j 0).val; omega
    | ⟨1, _⟩ => show win0_5.index t (1 : Fin 2) * 1024 + 1 * (j 1).val = win0_5.index t (1 : Fin 2) * 1024 + (j 1).val; omega
  rw [hemb]
  refine block_value (inputs m c) (Prefix.pars m c) (iblk m c 0 t) (iblk m c 1 t) (iblk m c 2 t) (iblk m c 3 t) (iblk m c 4 t)
    j (j 0) (j 1) _ _ (eq_ix2 j) (fun d => ?_) (fun d => ?_) (fun d => ?_) ?_ ?_
  · exact read_x m c t (ix2 (j 0) d) _ (by show win0_5.index t (0 : Fin 2) * 1024 + (j 0).val = _; rw [e00]) (by show d.val = win0_0.index t (1 : Fin 2) * 1024 + d.val; rw [e01]; omega)
  · rw [← Prefix.V_h_apply m c]
    exact read_h m c t (ix2 (j 1) d) _ (by show win0_5.index t (1 : Fin 2) * 1024 + (j 1).val = _; rw [e10]) (by show d.val = win0_1.index t (1 : Fin 2) * 1024 + d.val; rw [e11]; omega)
  · rw [← Prefix.V_p_apply m c]
    exact read_p m c t (ix2 (j 1) d) _ (by show win0_5.index t (1 : Fin 2) * 1024 + (j 1).val = _; rw [e20]) (by show d.val = win0_2.index t (1 : Fin 2) * 1024 + d.val; rw [e21]; omega)
  · rw [← Prefix.V_h0_apply m c]
    exact read_h0 m c t (ix2 (0 : Fin 1) (j 1)) _ (by show (0 : Nat) = win0_3.index t (0 : Fin 2) * 1 + 0; rw [e30]) (by show win0_5.index t (1 : Fin 2) * 1024 + (j 1).val = _; rw [e31])
  · rw [← Prefix.V_c_apply m c]
    exact read_c m c t (ix2 (0 : Fin 1) (j 1)) _ (by show (0 : Nat) = win0_4.index t (0 : Fin 2) * 1 + 0; rw [e40]) (by show win0_5.index t (1 : Fin 2) * 1024 + (j 1).val = _; rw [e41])

/-- An index of the result is in point `t`'s block iff each coordinate is in the block's range on its axis. -/
theorem mem_blk (t : Fin cfg0.N) (i : S16384x4096.Idx) :
    i ∈ ((cfg0.win 5).blk t).view.set ↔ ∀ a : Fin 2, win0_5.index t a * S1024x1024.size a ≤ (i a).val ∧ (i a).val < win0_5.index t a * S1024x1024.size a + S1024x1024.size a := by
  show i ∈ ((View.whole main_v13).slice (win0_5.rect t)).set ↔ _
  rw [View.set_slice_whole, Rect.mem_set_unit]
  exact Iff.rfl

/-- Every index of the result lies in some point's block: the point whose block is `(row / 1024, column / 1024)`. -/
theorem cover (i : S16384x4096.Idx) : ∃ t : Fin cfg0.N, (cfg0.win 5).flush t = true ∧ i ∈ ((cfg0.win 5).blk t).view.set := by
  have hi0 : (i 0).val < 16384 := (i 0).isLt
  have hi1 : (i 1).val < 4096 := (i 1).isLt
  obtain ⟨t, ht⟩ := idx_onto ⟨(i 0).val / 1024, by omega⟩ ⟨(i 1).val / 1024, by omega⟩
  have q0 : win0_5.index t (0 : Fin 2) = (i 0).val / 1024 := congrFun ht 0
  have q1 : win0_5.index t (1 : Fin 2) = (i 1).val / 1024 := congrFun ht 1
  refine ⟨t, flush0_5 t, ?_⟩
  rw [mem_blk]
  intro a
  match a with
  | ⟨0, _⟩ => show win0_5.index t (0 : Fin 2) * 1024 ≤ (i 0).val ∧ (i 0).val < win0_5.index t (0 : Fin 2) * 1024 + 1024; omega
  | ⟨1, _⟩ => show win0_5.index t (1 : Fin 2) * 1024 ≤ (i 1).val ∧ (i 1).val < win0_5.index t (1 : Fin 2) * 1024 + 1024; omega

/-- The result array after the run. -/
theorem final (c : Dev nD) : (dats m 0 c).arrAt 5 cfg0.N = resultA (inputs m c) (Prefix.pars m c) :=
  (dats m 0 c).arrAt_eq_of_cover 5 (resultA (inputs m c) (Prefix.pars m c)) (fun t _ => flushed_eq m c t) cover

/-- The run: every weakly fair execution terminates with the result array at `resultA` of the two arguments as
    launched, and the arguments unchanged. -/
theorem run : θ_run defs (onTc (τ := τ) (main (F := Ideal))) ⟨m, fun _ => 0, ρ⟩ fun r => ∀ c : Dev nD,
      r.2.mem ((c : Thread nD τ).loc main_v13) = resultA (inputs m c) (Prefix.pars m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.Paraboloid.Blocks

end
-- ==== Proof.RefRead.lean ====
/-
  The reference program's result, entry by entry, is the second arrangement of the paraboloid response.

  Each host operation is read at an index by its generated lemma; what remains are the index computations: the row of
  the scaled input a contraction or a row sum runs over is `(b, d)`, and the slices and reshapes of the packed parameter
  vector land on the positions `hAt`, `pAt`, `h0At`, `p0At`. The two zero initial values of the row sums drop out.
-/
import proofs.«160361_j47347719471158_2_alg».proof.Proof.Gen.ReferenceIdeal.Read
import Idealize.ShloMosaic.PureOps.Ideal.Laws
import proofs.«160361_j47347719471158_2_alg».proof.Proof.Spec

noncomputable section

open scoped BigOperators

namespace Cert.Paraboloid.Reference

open Idealize.ShloMosaic Idealize.ShloMosaic.ValueIdx Cert.ReferenceIdeal Cert.ReferenceIdeal.Read Cert.Paraboloid

/-- The last stage of the reference, as a function of the two arguments, is `resultB`. -/
theorem stage_eq_resultB (X : (⟨S16384x1024, .f32⟩ : BufTy).Contents (Elt Ideal)) (P : (⟨S8396800, .f32⟩ : BufTy).Contents (Elt Ideal)) :
    val_main_v31 (F := Ideal) X P = resultB X P := by
  funext i
  simp only [val_main_v31_apply, val_main_v30_apply, val_main_cst_3_apply, val_main_v29_apply, val_main_v26_apply,
    val_main_v25_apply, val_main_v11_apply, val_main_v8_apply, val_main_v10_apply, val_main_v9_apply, val_main_v2_apply,
    val_main_v24_apply, val_main_v21_apply, val_main_v20_apply, val_main_v14_apply, val_main_v13_apply, val_main_v19_apply,
    val_main_v18_apply, val_main_cst_2_apply, val_main_v17_apply, val_main_v23_apply, val_main_v22_apply, val_main_v16_apply,
    val_main_v28_apply, val_main_v27_apply, val_main_v7_apply, val_main_v1_apply, val_main_v0_apply, val_main_cst_apply,
    val_main_v4_apply, val_main_v3_apply, val_main_v6_apply, val_main_v5_apply, val_main_v12_apply, val_main_v15_apply,
    val_main_cst_0_apply, val_main_cst_1_apply, Ideal.mulf_def, Ideal.addf_def, Ideal.subf_def, Ideal.ofBits_def,
    Ideal.ofBits_zero_f32, zero_add]
  unfold resultB formB
  have e1 : ∀ k : Fin 1024, lidx_main_v8 i k = ix2 (i 0) k := fun k =>
    funext fun a => Fin.ext (by match a with | ⟨0, _⟩ => rfl | ⟨1, _⟩ => rfl)
  have e2 : ∀ k : Fin 1024, idx_main_v3 (idx_main_v4 (ridx_main_v8 i k)) = ix1 (hAt (i 1) k) := fun k =>
    funext fun a => Fin.ext (by match a with | ⟨0, _⟩ => rfl)
  have e3 : idx_main_v2 (idx_main_v9 (idx_main_v10 i)) = ix1 (h0At (i 1)) :=
    funext fun a => Fin.ext (by match a with | ⟨0, _⟩ => rfl)
  have e4 : ∀ k : Fin 1024, idx_main_v13 (idx_main_v14 (idx_main_v20 i)) k = ix2 (i 0) k := fun k =>
    funext fun a => Fin.ext (by match a with | ⟨0, _⟩ => rfl | ⟨1, _⟩ => rfl)
  have e5 : ∀ k : Fin 1024, lidx_main_v17 i k = ix2 (i 0) k := fun k =>
    funext fun a => Fin.ext (by match a with | ⟨0, _⟩ => rfl | ⟨1, _⟩ => rfl)
  have e6 : ∀ k : Fin 1024, idx_main_v5 (idx_main_v6 (ridx_main_v17 i k)) = ix1 (pAt (i 1) k) := fun k =>
    funext fun a => Fin.ext (by match a with | ⟨0, _⟩ => rfl)
  have e7 : ∀ k : Fin 1024, idx_main_v5 (idx_main_v6 (idx_main_v16 (idx_main_v22 (idx_main_v23 i)) k)) = ix1 (pAt (i 1) k) := fun k =>
    funext fun a => Fin.ext (by match a with | ⟨0, _⟩ => rfl)
  have e8 : idx_main_v7 (idx_main_v27 (idx_main_v28 i)) = ix1 (p0At (i 1)) :=
    funext fun a => Fin.ext (by match a with | ⟨0, _⟩ => rfl)
  simp only [e1, e2, e3, e4, e5, e6, e7, e8]
  rfl

end Cert.Paraboloid.Reference

end
-- ==== Proof.LibFiniteEntry.lean ====
/-
  The "every input is finite" precondition, read at one entry, on the extended reals.

  Such a precondition tests each float argument `x` by `all (|x| < +inf)`: elementwise `|x[i]| < inf` against the f32
  pattern `0x7F800000`, reduced by `and` to one bit. There `|a| = max a (-a)`, the pattern is `⊤`, and `max a (-a) < ⊤`
  excludes both `a = ⊤` and `a = ⊥`: the entry is a real number (`entry_real`, for an array of any shape, from its
  elementwise test being 1 at that entry; the reduction's bit gives that through `Host.reduce_andi_all`, which asks for
  the `Subsingleton` instance below). Also here: the f32 pattern of 1.0 is the real number 1 (`ofBits_one_real`).
-/
import Idealize.ShloMosaic.PureOps.Ideal
import Idealize.ShloMosaic.Lib.ReduceAll

noncomputable section

namespace Cert.Lib.FiniteEntry

open Idealize.ShloMosaic

/-- The scalar shape has one index. -/
instance : Subsingleton (⟨0, ![]⟩ : Shape).Idx := ⟨fun a b => funext fun d => d.elim0⟩

/-- The f32 pattern `0x7F800000` is `+inf`. -/
theorem ofBits_inf : Ideal.ofBits .f32 0x7F800000#32 = ⊤ := by
  simp [Ideal.ofBits, Ideal.ieee]

/-- The f32 pattern `0x3F800000` is the real number 1. -/
theorem ofBits_one_real : ∃ r : ℝ, Ideal.ofBits .f32 0x3F800000#32 = (r : EReal) :=
  ⟨1, by simp [Ideal.ofBits, Ideal.ieee, -EReal.coe_mul]; norm_num⟩

/-- An extended real whose absolute value is below `+inf` is a real number. -/
theorem real_of_abs_lt_inf (a : EReal) (h : Ideal.cmp .olt (max a (-a)) (Ideal.ofBits .f32 0x7F800000#32) = 1#1) :
    ∃ r : ℝ, a = (r : EReal) := by
  rw [ofBits_inf] at h
  induction a using EReal.rec with
  | bot => simp [Ideal.cmp] at h
  | coe r => exact ⟨r, rfl⟩
  | top => simp [Ideal.cmp] at h

/-- One argument's elementwise test `|x| < inf`, 1 at entry `i`: that entry is a real number. -/
theorem entry_real {s : Shape} (hb : (⟨0, ![]⟩ : Shape).BroadcastsInDim s (![] : Fin 0 → Fin s.rank)) (x : FVec Ideal s .f32)
    (i : s.Idx)
    (h : cmpf .olt (Host.absf x) (broadcastInDim s ![] hb (constant (F := Ideal) ⟨0, ![]⟩ .f32 0x7F800000#32)) i = 1#1) :
    ∃ r : ℝ, x i = (r : EReal) :=
  real_of_abs_lt_inf (x i) h

end Cert.Lib.FiniteEntry

end
-- ==== Proof.Finite.lean ====
/-
  The precondition, read at one entry: every entry of both inputs is a real number.

  The precondition is the conjunction of two tests, one per input, each "every entry's absolute value is below +inf",
  reduced by `and` to one bit. That bit being 1 gives both tests' bits, each test's bit gives its elementwise comparison
  at every entry, and an extended real whose absolute value is below +inf is neither infinity.
-/
import proofs.«160361_j47347719471158_2_alg».proof.Pre_finite_inputs
import proofs.«160361_j47347719471158_2_alg».proof.Proof.Gen.Pre_finite_inputs
import Idealize.ShloMosaic.Lib.ReduceAll
import Idealize.ShloMosaic.Lib.ValueIdx
import proofs.«160361_j47347719471158_2_alg».proof.Proof.LibFiniteEntry

noncomputable section

namespace Cert.Paraboloid.Finite

open Idealize.ShloMosaic Idealize.ShloMosaic.ValueIdx Cert.Pre_finite_inputs

/-- If the finiteness test of the two inputs is 1, every entry of each is a real number. -/
theorem entries_real (X : FVec Ideal S16384x1024 .f32) (P : FVec Ideal S8396800 .f32)
    (h : fn (F := Ideal) X P = fun _ => 1#1) :
    (∀ i, ∃ r : ℝ, X i = (r : EReal)) ∧ (∀ j, ∃ r : ℝ, P j = (r : EReal)) := by
  have h1 := congrFun h ix0
  dsimp only [fn] at h1
  obtain ⟨hX, hP⟩ := IntOp.andi_eq_one.1 h1
  exact ⟨fun i => Cert.Lib.FiniteEntry.entry_real _ X i (Host.reduce_andi_all _ _ _ _ _ hX i),
    fun j => Cert.Lib.FiniteEntry.entry_real _ P j (Host.reduce_andi_all _ _ _ _ _ hP j)⟩

end Cert.Paraboloid.Finite

end
-- ==== Proof.lean ====
/-
  A paraboloid neuron layer: for a batch row `b` and a neuron `n`, with `x = s · input[b, ·]` the scaled input row,

      out[b, n] = o · (hs² - |x - p[n]|² + p0[n]),     hs = ⟨x, h[n]⟩ + h0[n],

  the squared distance expanded as `xx - 2·xp + pp`. The reference forms that distance and subtracts it whole. The
  kernel tiles the result in 1024 × 1024 blocks over a 4 × 16 grid, has the host fold `c = p0 - pp` beforehand, and
  adds the terms one by one, `o · (((hs·hs + 2·xp) - xx) + c)`; its two block products and the row sum of squares are, on the
  extended reals, the same sums the reference's contractions and row sums are, and the change of float format on the
  way into the products is the identity there.

  The two arrangements differ only by a regrouping of additions and subtractions, which on the extended reals is valid
  when every term is a real number: that is what the precondition (every input entry finite) provides, the three
  literal factors being real numbers whatever their exact values. So: the kernel's result array is the first
  arrangement at every entry (block by block, the blocks tiling the array); the reference's is the second (operation by
  operation); under the precondition the two are one function of the arguments.

  The three frame claims are the generated frame runs (the reference's is its generated run with the result dropped);
  the kernel's idealization rewrote no operation, so nothing is owed for it.
-/
import proofs.«160361_j47347719471158_2_alg».proof.Defs
import proofs.«160361_j47347719471158_2_alg».proof.Proof.Gen.Kernel
import proofs.«160361_j47347719471158_2_alg».proof.Proof.Gen.Kernel.Skeleton
import proofs.«160361_j47347719471158_2_alg».proof.Proof.Gen.Kernel.Launch
import proofs.«160361_j47347719471158_2_alg».proof.Proof.Gen.Kernel.Points
import proofs.«160361_j47347719471158_2_alg».proof.Proof.Gen.Kernel.Frame
import proofs.«160361_j47347719471158_2_alg».proof.Proof.Gen.KernelIdeal
import proofs.«160361_j47347719471158_2_alg».proof.Proof.Gen.KernelIdeal.Skeleton
import proofs.«160361_j47347719471158_2_alg».proof.Proof.Gen.KernelIdeal.Launch
import proofs.«160361_j47347719471158_2_alg».proof.Proof.Gen.KernelIdeal.Points
import proofs.«160361_j47347719471158_2_alg».proof.Proof.Gen.KernelIdeal.Frame
import proofs.«160361_j47347719471158_2_alg».proof.Proof.Gen.ReferenceIdeal
import proofs.«160361_j47347719471158_2_alg».proof.Proof.Gen.KernelIdeal.Value
import proofs.«160361_j47347719471158_2_alg».proof.Proof.Gen.ReferenceIdeal.Run
import proofs.«160361_j47347719471158_2_alg».proof.Proof.Gen.ReferenceIdeal.Read
import proofs.«160361_j47347719471158_2_alg».proof.Proof.Gen.Pre_finite_inputs
import proofs.«160361_j47347719471158_2_alg».proof.Proof.Blocks
import proofs.«160361_j47347719471158_2_alg».proof.Proof.RefRead
import proofs.«160361_j47347719471158_2_alg».proof.Proof.Finite
import Idealize.ShloMosaic.Adequacy
import Idealize.ShloMosaic.Init

noncomputable section

namespace Cert.Proof

open Idealize.ShloMosaic Idealize.ShloMosaic.TcCoe Idealize.SL.Sem

/-- The kernel as printed runs, and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as they were: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On finite inputs the kernel's result (the first arrangement at every entry) and the reference's (the second) are
    equal as extended reals, entry by entry. -/
theorem algebraic : Cert.algebraic_KernelIdeal_ReferenceIdeal := by
  intro m ρ m' ρ' hpre hagree
  refine ⟨fun c => Cert.Paraboloid.resultA (Cert.Paraboloid.Blocks.inputs m c) (Cert.Paraboloid.Prefix.pars m c),
    Cert.Paraboloid.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v31_eq, Cert.Paraboloid.Reference.stage_eq_resultB, (hagree c).1, (hagree c).2]
  obtain ⟨hX, hP⟩ := Cert.Paraboloid.Finite.entries_real _ _ (hpre c)
  exact (Cert.Paraboloid.resultA_eq_resultB _ _ hX hP).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
